-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024x1024 .f32) (main_arg5 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S1024x4x1024, .f32⟩
  | .hbm, ⟨7, _⟩ => ⟨S1024x4096, .f32⟩
  | .hbm, ⟨8, _⟩ => ⟨S1024x4096, .bf16⟩
  | .hbm, ⟨9, _⟩ => ⟨S1024x4x1024, .f32⟩
  | .hbm, ⟨10, _⟩ => ⟨S1024x4096, .f32⟩
  | .hbm, ⟨11, _⟩ => ⟨S1024x4096, .bf16⟩
  | .hbm, ⟨12, _⟩ => ⟨S1x4096, .f32⟩
  | .hbm, ⟨13, _⟩ => ⟨S8192x1024, .f32⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S8192x4x1024 : Shape := ⟨3, ![8192, 4, 1024]⟩
abbrev S1x4x1024 : Shape := ⟨3, ![1, 4, 1024]⟩
abbrev S8192x1x1024 : Shape := ⟨3, ![8192, 1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S8192x4x1024, .f32⟩
  | .hbm, ⟨7, _⟩ => ⟨S8192x4x1024, .f32⟩
  | .hbm, ⟨8, _⟩ => ⟨S8192x4x1024, .f32⟩
  | .hbm, ⟨9, _⟩ => ⟨S1x4x1024, .f32⟩
  | .hbm, ⟨10, _⟩ => ⟨S8192x4x1024, .f32⟩
  | .hbm, ⟨11, _⟩ => ⟨S8192x4x1024, .f32⟩
  | .hbm, ⟨12, _⟩ => ⟨S8192x1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  bcast_S_S8192x1024 : S_.BroadcastsInDim S8192x1024 (![] : Fin 0 → Fin S8192x1024.rank)
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  dot_S8192x1024_S4x1024x1024_S8192x4x1024_1_2_0_01_n_n_wf : DotDims.WF S8192x1024 S4x1024x1024 S8192x4x1024 [1] [2] [0] [0, 1] [] []

variable [Facts₀]

def dot_S8192x1024_S4x1024x1024_S8192x4x1024_1_2_0_01_n_n : DotDims S8192x1024 S4x1024x1024 S8192x4x1024 where
  lhsContracting := [1]
  rhsContracting := [2]
  lhsNonContracting := [0]
  rhsNonContracting := [0, 1]
  lhsBatch := []
  rhsBatch := []
  wf := dot_S8192x1024_S4x1024x1024_S8192x4x1024_1_2_0_01_n_n_wf

class Facts : Prop extends Facts₀ where

variable [Facts]
-- ==== Proof.Spec.lean ====
/-
  The long short-term memory cell, as one function of the six argument arrays, index by index, on the extended reals.

  For a batch row `b`, a gate `g` (0 input, 1 forget, 2 candidate, 3 output) and a hidden unit `j`, the gate's
  pre-activation is
      gate b g j = (Σ_k x[b,k] · Wx[g,j,k]  +  Σ_k h[b,k] · Wh[g,j,k])  +  bh[g,j],
  the two sums added first and the bias last (the grouping both programs use, so no sum is ever re-associated). Then
      cell   b j = σ(gate b 1 j) · c[b,j]  +  σ(gate b 0 j) · tanh(gate b 2 j)
      hidden b j = σ(gate b 3 j) · tanh(cell b j)
  with σ the logistic function. `cellArr` and `hiddenArr` are these as arrays over [8192, 1024].
  Nothing here needs the inputs to be finite: only the order of the operations is fixed, and both programs keep it.
-/
import Idealize.ShloMosaic.PureOps.Ideal
import Idealize.ShloMosaic.Lib.ValueIdx

noncomputable section

namespace Cert.Lstm

open Idealize.ShloMosaic Idealize.ShloMosaic.ValueIdx

/-- A batch array: [8192, 1024] extended reals (`x`, `h_prev`, `c_prev`, and the two results). -/
abbrev Bat := (⟨2, ![8192, 1024]⟩ : Shape).Idx → EReal
/-- A weight array: [4, 1024, 1024] (gate, hidden unit, input feature). -/
abbrev Wgt := (⟨3, ![4, 1024, 1024]⟩ : Shape).Idx → EReal
/-- The bias array: [4, 1024] (gate, hidden unit). -/
abbrev Bia := (⟨2, ![4, 1024]⟩ : Shape).Idx → EReal

/-- The pre-activation of gate `g` of hidden unit `j` on batch row `b`. -/
def gate (x h : Bat) (Wx Wh : Wgt) (bh : Bia) (b : Fin 8192) (g : Fin 4) (j : Fin 1024) : EReal :=
  ((∑ k : Fin 1024, x (ix2 b k) * Wx (ix3 g j k)) + (∑ k : Fin 1024, h (ix2 b k) * Wh (ix3 g j k))) + bh (ix2 g j)

/-- The next cell state at row `b`, unit `j`: forget gate times the old cell plus input gate times the candidate. -/
def cell (x h c : Bat) (Wx Wh : Wgt) (bh : Bia) (b : Fin 8192) (j : Fin 1024) : EReal :=
  Ideal.logistic (gate x h Wx Wh bh b 1 j) * c (ix2 b j)
    + Ideal.logistic (gate x h Wx Wh bh b 0 j) * Ideal.tanh (gate x h Wx Wh bh b 2 j)

/-- The next hidden state at row `b`, unit `j`: output gate times tanh of the next cell state. -/
def hidden (x h c : Bat) (Wx Wh : Wgt) (bh : Bia) (b : Fin 8192) (j : Fin 1024) : EReal :=
  Ideal.logistic (gate x h Wx Wh bh b 3 j) * Ideal.tanh (cell x h c Wx Wh bh b j)

/-- The next cell state as an array. -/
def cellArr (x h c : Bat) (Wx Wh : Wgt) (bh : Bia) : Bat := fun i => cell x h c Wx Wh bh (i 0) (i 1)

/-- The next hidden state as an array. -/
def hiddenArr (x h c : Bat) (Wx Wh : Wgt) (bh : Bia) : Bat := fun i => hidden x h c Wx Wh bh (i 0) (i 1)

theorem cellArr_ix2 (x h c : Bat) (Wx Wh : Wgt) (bh : Bia) (b : Fin 8192) (j : Fin 1024) :
    cellArr x h c Wx Wh bh (ix2 b j) = cell x h c Wx Wh bh b j := rfl

theorem hiddenArr_ix2 (x h c : Bat) (Wx Wh : Wgt) (bh : Bia) (b : Fin 8192) (j : Fin 1024) :
    hiddenArr x h c Wx Wh bh (ix2 b j) = hidden x h c Wx Wh bh b j := rfl

end Cert.Lstm

end
-- ==== Proof.RefCell.lean ====
/-
  The reference program's two results, read at an index, are the cell's two arrays.
-/
import proofs.«130120_j76519137345618_2_alg».proof.Proof.Gen.ReferenceIdeal.Read
import proofs.«130120_j76519137345618_2_alg».proof.Proof.Spec
import Idealize.ShloMosaic.Lib.IdealHost

noncomputable section

namespace Cert.Lstm.Ref

open Idealize.ShloMosaic Idealize.ShloMosaic.ValueIdx Cert.ReferenceIdeal Cert.ReferenceIdeal.Read

/-- The gate array (`%5`) at row `b`, gate `g`, unit `j` is the specification's pre-activation. -/
private theorem gates_read (x0 x1 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (g : Fin 4) (j : Fin 1024) :
    val_main_v5 (F := Ideal) x0 x1 x3 x4 x5 (ix3 b g j) = Cert.Lstm.gate x0 x1 x3 x4 x5 b g j := by
  rw [val_main_v5_apply, val_main_v2_apply, val_main_v0_apply, val_main_v1_apply, val_main_v4_apply, val_main_v3_apply]
  have hl : ∀ k : Fin 1024, lidx_main_v0 (ix3 b g j) k = ix2 b k := fun k => funext fun a => by
    match a with | ⟨0, _⟩ => rfl | ⟨1, _⟩ => rfl
  have hr : ∀ k : Fin 1024, ridx_main_v0 (ix3 b g j) k = ix3 g j k := fun k => funext fun a => by
    match a with | ⟨0, _⟩ => rfl | ⟨1, _⟩ => rfl | ⟨2, _⟩ => rfl
  have hl1 : ∀ k : Fin 1024, lidx_main_v1 (ix3 b g j) k = ix2 b k := fun k => funext fun a => by
    match a with | ⟨0, _⟩ => rfl | ⟨1, _⟩ => rfl
  have hr1 : ∀ k : Fin 1024, ridx_main_v1 (ix3 b g j) k = ix3 g j k := fun k => funext fun a => by
    match a with | ⟨0, _⟩ => rfl | ⟨1, _⟩ => rfl | ⟨2, _⟩ => rfl
  have hb : idx_main_v3 (idx_main_v4 (ix3 b g j)) = ix2 g j := funext fun a => by
    match a with | ⟨0, _⟩ => rfl | ⟨1, _⟩ => rfl
  simp only [hl, hr, hl1, hr1, hb]
  rfl

/-- Row-major position `b * 1024 + j` of a `[8192, 1024]` index, read back through a `[8192, 1, 1024]` array and
    a one-wide slice starting at gate `g`, is the index `(b, g, j)`. -/
private theorem slice0_idx (b : Fin 8192) (j : Fin 1024) : idx_main_v6 (idx_main_v7 (ix2 b j)) = ix3 b 0 j := by
  have hb := b.isLt; have hj := j.isLt
  funext a
  match a with
  | ⟨0, _⟩ => exact Fin.ext (by show (b.val * 1024 + j.val) / 1024 = b.val; omega)
  | ⟨1, _⟩ => rfl
  | ⟨2, _⟩ => exact Fin.ext (by show (b.val * 1024 + j.val) % 1024 = j.val; omega)
private theorem slice1_idx (b : Fin 8192) (j : Fin 1024) : idx_main_v14 (idx_main_v15 (ix2 b j)) = ix3 b 1 j := by
  have hb := b.isLt; have hj := j.isLt
  funext a
  match a with
  | ⟨0, _⟩ => exact Fin.ext (by show (b.val * 1024 + j.val) / 1024 = b.val; omega)
  | ⟨1, _⟩ => rfl
  | ⟨2, _⟩ => exact Fin.ext (by show (b.val * 1024 + j.val) % 1024 = j.val; omega)
private theorem slice2_idx (b : Fin 8192) (j : Fin 1024) : idx_main_v22 (idx_main_v23 (ix2 b j)) = ix3 b 2 j := by
  have hb := b.isLt; have hj := j.isLt
  funext a
  match a with
  | ⟨0, _⟩ => exact Fin.ext (by show (b.val * 1024 + j.val) / 1024 = b.val; omega)
  | ⟨1, _⟩ => rfl
  | ⟨2, _⟩ => exact Fin.ext (by show (b.val * 1024 + j.val) % 1024 = j.val; omega)
private theorem slice3_idx (b : Fin 8192) (j : Fin 1024) : idx_main_v25 (idx_main_v26 (ix2 b j)) = ix3 b 3 j := by
  have hb := b.isLt; have hj := j.isLt
  funext a
  match a with
  | ⟨0, _⟩ => exact Fin.ext (by show (b.val * 1024 + j.val) / 1024 = b.val; omega)
  | ⟨1, _⟩ => rfl
  | ⟨2, _⟩ => exact Fin.ext (by show (b.val * 1024 + j.val) % 1024 = j.val; omega)

/-- The four reshaped slices (`%7`, `%15`, `%23`, `%26`) at `(b, j)` are the four gates' pre-activations. -/
private theorem pre0 (x0 x1 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (j : Fin 1024) :
    val_main_v7 (F := Ideal) x0 x1 x3 x4 x5 (ix2 b j) = Cert.Lstm.gate x0 x1 x3 x4 x5 b 0 j := by
  rw [val_main_v7_apply, val_main_v6_apply, slice0_idx, gates_read]
private theorem pre1 (x0 x1 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (j : Fin 1024) :
    val_main_v15 (F := Ideal) x0 x1 x3 x4 x5 (ix2 b j) = Cert.Lstm.gate x0 x1 x3 x4 x5 b 1 j := by
  rw [val_main_v15_apply, val_main_v14_apply, slice1_idx, gates_read]
private theorem pre2 (x0 x1 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (j : Fin 1024) :
    val_main_v23 (F := Ideal) x0 x1 x3 x4 x5 (ix2 b j) = Cert.Lstm.gate x0 x1 x3 x4 x5 b 2 j := by
  rw [val_main_v23_apply, val_main_v22_apply, slice2_idx, gates_read]
private theorem pre3 (x0 x1 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (j : Fin 1024) :
    val_main_v26 (F := Ideal) x0 x1 x3 x4 x5 (ix2 b j) = Cert.Lstm.gate x0 x1 x3 x4 x5 b 3 j := by
  rw [val_main_v26_apply, val_main_v25_apply, slice3_idx, gates_read]

/-- The input gate (`%13`): one over one plus the exponential of the negated pre-activation is the logistic function. -/
private theorem sig0 (x0 x1 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (j : Fin 1024) :
    val_main_v13 (F := Ideal) x0 x1 x3 x4 x5 (ix2 b j) = Ideal.logistic (Cert.Lstm.gate x0 x1 x3 x4 x5 b 0 j) := by
  rw [val_main_v13_apply, val_main_v12_apply, val_main_cst_0_apply, val_main_v11_apply, val_main_v10_apply,
    val_main_cst_apply, val_main_v9_apply, val_main_v8_apply, pre0]
  simp only [Ideal.hostDivf_def, Ideal.ofBits_def, Ideal.ofBits_one_f32, Ideal.addf_def, Ideal.hostUnary_exp_def,
    Ideal.hostNegf_def, Ideal.negf_def]
  rfl
/-- The forget gate (`%21`). -/
private theorem sig1 (x0 x1 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (j : Fin 1024) :
    val_main_v21 (F := Ideal) x0 x1 x3 x4 x5 (ix2 b j) = Ideal.logistic (Cert.Lstm.gate x0 x1 x3 x4 x5 b 1 j) := by
  rw [val_main_v21_apply, val_main_v20_apply, val_main_cst_2_apply, val_main_v19_apply, val_main_v18_apply,
    val_main_cst_1_apply, val_main_v17_apply, val_main_v16_apply, pre1]
  simp only [Ideal.hostDivf_def, Ideal.ofBits_def, Ideal.ofBits_one_f32, Ideal.addf_def, Ideal.hostUnary_exp_def,
    Ideal.hostNegf_def, Ideal.negf_def]
  rfl
/-- The output gate (`%32`). -/
private theorem sig3 (x0 x1 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (j : Fin 1024) :
    val_main_v32 (F := Ideal) x0 x1 x3 x4 x5 (ix2 b j) = Ideal.logistic (Cert.Lstm.gate x0 x1 x3 x4 x5 b 3 j) := by
  rw [val_main_v32_apply, val_main_v31_apply, val_main_cst_4_apply, val_main_v30_apply, val_main_v29_apply,
    val_main_cst_3_apply, val_main_v28_apply, val_main_v27_apply, pre3]
  simp only [Ideal.hostDivf_def, Ideal.ofBits_def, Ideal.ofBits_one_f32, Ideal.addf_def, Ideal.hostUnary_exp_def,
    Ideal.hostNegf_def, Ideal.negf_def]
  rfl
/-- The candidate (`%24`). -/
private theorem cand (x0 x1 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (j : Fin 1024) :
    val_main_v24 (F := Ideal) x0 x1 x3 x4 x5 (ix2 b j) = Ideal.tanh (Cert.Lstm.gate x0 x1 x3 x4 x5 b 2 j) := by
  rw [val_main_v24_apply, pre2]
  rfl
/-- The second result (`%35`) at `(b, j)` is the next cell state. -/
private theorem cell_read (x0 x1 x2 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) (b : Fin 8192) (j : Fin 1024) :
    val_main_v35 (F := Ideal) x0 x1 x2 x3 x4 x5 (ix2 b j) = Cert.Lstm.cell x0 x1 x2 x3 x4 x5 b j := by
  rw [val_main_v35_apply, val_main_v33_apply, val_main_v34_apply, sig1, sig0, cand]
  rfl

/-- The reference's second result (`%35`) is the next cell state. -/
theorem ref_cell (x0 x1 x2 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) :
    val_main_v35 (F := Ideal) x0 x1 x2 x3 x4 x5 = Cert.Lstm.cellArr x0 x1 x2 x3 x4 x5 := by
  funext i
  obtain ⟨b, j, rfl⟩ : ∃ (b : Fin 8192) (j : Fin 1024), i = ix2 b j := ⟨i 0, i 1, eq_ix2 i⟩
  rw [Cert.Lstm.cellArr_ix2]
  exact cell_read x0 x1 x2 x3 x4 x5 b j

/-- The reference's first result (`%37`) is the next hidden state. -/
theorem ref_hidden (x0 x1 x2 : (⟨S8192x1024, .f32⟩ : BufTy).Contents (Elt Ideal)) (x3 x4 : (⟨S4x1024x1024, .f32⟩ : BufTy).Contents (Elt Ideal)) (x5 : (⟨S4x1024, .f32⟩ : BufTy).Contents (Elt Ideal)) :
    val_main_v37 (F := Ideal) x0 x1 x2 x3 x4 x5 = Cert.Lstm.hiddenArr x0 x1 x2 x3 x4 x5 := by
  funext i
  obtain ⟨b, j, rfl⟩ : ∃ (b : Fin 8192) (j : Fin 1024), i = ix2 b j := ⟨i 0, i 1, eq_ix2 i⟩
  rw [Cert.Lstm.hiddenArr_ix2, val_main_v37_apply, val_main_v36_apply, sig3, cell_read]
  rfl

end Cert.Lstm.Ref

end
-- ==== Proof.HostPrep.lean ====
/-
  The three arrays the host prepares before the kernel, read at an index: the two weight arrays transposed to
  (feature, gate, unit), flattened to [1024, 4096] (column = gate · 1024 + unit) and narrowed, and the bias flattened
  to [1, 4096].
-/
import proofs.«130120_j76519137345618_2_alg».proof.Proof.Gen.KernelIdeal.Frame
import Idealize.ShloMosaic.Lib.Pipeline.Value
import Idealize.ShloMosaic.Lib.ValueIdx
import Idealize.ShloMosaic.Lib.StableHlo.Run

noncomputable section

namespace Cert.Lstm.Host

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Reading the transposed, flattened and narrowed weight array: at (feature `k`, column `g · 1024 + j`) it is the
    source weight at (gate `g`, unit `j`, feature `k`). The narrowing is the identity on extended reals; the
    flattening keeps the row-major position, `(k · 4 + g) · 1024 + j = k · 4096 + (g · 1024 + j)`; the transpose with
    permutation [2, 0, 1] puts result axis `b` at source axis `perm[b]`. -/
private theorem prep_apply (W : S4x1024x1024.Idx → EReal) (k : Fin 1024) (g : Fin 4) (j : Fin 1024) (col : Fin 4096)
    (hcol : col.val = g.val * 1024 + j.val) :
    (truncf (F := Ideal) (φ := .f32) .bf16 (shapeCast S1024x4096 (transpose S1024x4x1024 [2, 0, 1] W Facts₀.transposes_S4x1024x1024_S1024x4x1024_2_0_1) Facts₀.shapeCasts_S1024x4x1024_S1024x4096) Facts₀.bitsLt_bf16_f32 : S1024x4096.Idx → EReal) (ix2 k col)
      = W (ix3 g j k) := by
  refine (truncf_apply (φ := .f32) (ψ := .bf16) _ Facts₀.bitsLt_bf16_f32 (ix2 k col)).trans ?_
  refine (shapeCast_apply _ _ (ix2 k col) (ix3 k g j : S1024x4x1024.Idx) ?_).trans ?_
  · rewrite [Shape.rowMajor_val_three, Shape.rowMajor_val_two]
    have hk : k.val < 1024 := k.isLt
    have hg : g.val < 4 := g.isLt
    have hj : j.val < 1024 := j.isLt
    show (k.val * 4 + g.val) * 1024 + j.val = k.val * 4096 + col.val
    omega
  · exact transpose_apply _ W _ (ix3 k g j : S1024x4x1024.Idx) (ix3 g j k : S4x1024x1024.Idx)
      (fun b => match b with | ⟨0, _⟩ => rfl | ⟨1, _⟩ => rfl | ⟨2, _⟩ => rfl)

/-- The prepared input-weight array at (feature `k`, column `g · 1024 + j`) is `Wx[g, j, k]`. -/
theorem wx_apply (c : Dev nD) (k : Fin 1024) (g : Fin 4) (j : Fin 1024) (col : Fin 4096) (hcol : col.val = g.val * 1024 + j.val) :
    (V m c main_v2 : S1024x4096.Idx → EReal) (ix2 k col) = (m ((c : Thread nD τ).loc main_arg3) : S4x1024x1024.Idx → EReal) (ix3 g j k) := by
  -- the buffer as the term the three host operations compute from the argument
  have e : (V m c main_v2 : S1024x4096.Idx → EReal) = (truncf (F := Ideal) (φ := .f32) .bf16 (shapeCast S1024x4096 (transpose S1024x4x1024 [2, 0, 1] (m ((c : Thread nD τ).loc main_arg3) : S4x1024x1024.Idx → EReal) Facts₀.transposes_S4x1024x1024_S1024x4x1024_2_0_1) Facts₀.shapeCasts_S1024x4x1024_S1024x4096) Facts₀.bitsLt_bf16_f32 : S1024x4096.Idx → EReal) := by
    dsimp only [Gen.V, Gen.hostOps0]
    after_results
    rfl
  exact (congrFun e (ix2 k col)).trans (prep_apply _ k g j col hcol)

/-- The prepared recurrent-weight array at (feature `k`, column `g · 1024 + j`) is `Wh[g, j, k]`. -/
theorem wh_apply (c : Dev nD) (k : Fin 1024) (g : Fin 4) (j : Fin 1024) (col : Fin 4096) (hcol : col.val = g.val * 1024 + j.val) :
    (V m c main_v5 : S1024x4096.Idx → EReal) (ix2 k col) = (m ((c : Thread nD τ).loc main_arg4) : S4x1024x1024.Idx → EReal) (ix3 g j k) := by
  -- the buffer as the term the three host operations compute from the argument
  have e : (V m c main_v5 : S1024x4096.Idx → EReal) = (truncf (F := Ideal) (φ := .f32) .bf16 (shapeCast S1024x4096 (transpose S1024x4x1024 [2, 0, 1] (m ((c : Thread nD τ).loc main_arg4) : S4x1024x1024.Idx → EReal) Facts₀.transposes_S4x1024x1024_S1024x4x1024_2_0_1) Facts₀.shapeCasts_S1024x4x1024_S1024x4096) Facts₀.bitsLt_bf16_f32 : S1024x4096.Idx → EReal) := by
    dsimp only [Gen.V, Gen.hostOps0]
    after_results
    rfl
  exact (congrFun e (ix2 k col)).trans (prep_apply _ k g j col hcol)

/-- The prepared bias row at column `g · 1024 + j` is `bh[g, j]`. -/
theorem bh_apply (c : Dev nD) (z : Fin 1) (g : Fin 4) (j : Fin 1024) (col : Fin 4096) (hcol : col.val = g.val * 1024 + j.val) :
    (V m c main_v6 : S1x4096.Idx → EReal) (ix2 z col) = (m ((c : Thread nD τ).loc main_arg5) : S4x1024.Idx → EReal) (ix2 g j) := by
  -- the buffer as the one flattening of the argument
  have e : (V m c main_v6 : S1x4096.Idx → EReal) = (shapeCast S1x4096 (m ((c : Thread nD τ).loc main_arg5) : S4x1024.Idx → EReal) Facts₀.shapeCasts_S4x1024_S1x4096 : S1x4096.Idx → EReal) := by
    dsimp only [Gen.V, Gen.hostOps0]
    after_results
    rfl
  refine (congrFun e (ix2 z col)).trans ?_
  -- the flattening keeps the row-major position: `g · 1024 + j = 0 · 4096 + col`
  refine shapeCast_apply _ _ (ix2 z col) (ix2 g j : S4x1024.Idx) ?_
  rewrite [Shape.rowMajor_val_two, Shape.rowMajor_val_two]
  have hz : z.val < 1 := z.isLt
  show g.val * 1024 + j.val = z.val * 4096 + col.val
  omega

end Cert.Lstm.Host

end
-- ==== Proof.BodyGate.lean ====
/-
  The kernel body's gate pre-activations, read at an index of the [256, 4096] tile: the two matrix products as plain
  sums over the 1024 features, added, plus the bias row broadcast down the rows.
-/
import proofs.«130120_j76519137345618_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Lstm.Body

open Idealize.ShloMosaic Idealize.ShloMosaic.ValueIdx
open Cert.KernelIdeal Cert.KernelIdeal.Gen

/-- The dimension numbers of both matrix products: contract the left operand's axis 1 with the right operand's axis 0. -/
private abbrev dotD : DotDims S256x1024 S1024x4096 S256x4096 := dot_S256x1024_S1024x4096_S256x4096_1_0_0_1_n_n

/-- The left operand's row coordinate is the output's row. -/
private theorem lhs0 (i : S256x4096.Idx) (q : dotD.contr.Idx) : (dotD.lhsIdx i q 0).val = (i 0).val := by
  unfold DotDims.lhsIdx
  rw [dif_neg (show ¬(0 : Fin S256x1024.rank) ∈ dotD.lhsBatch by decide), dif_pos (show (0 : Fin S256x1024.rank) ∈ dotD.lhsNonContracting by decide)]
  rfl
/-- The left operand's column coordinate is the contraction index. -/
private theorem lhs1 (i : S256x4096.Idx) (q : dotD.contr.Idx) : (dotD.lhsIdx i q 1).val = (q ⟨0, by decide⟩).val :=
  dotD.lhsIdx_val_of_single rfl i q
/-- The right operand's row coordinate is the contraction index. -/
private theorem rhs0 (i : S256x4096.Idx) (q : dotD.contr.Idx) : (dotD.rhsIdx i q 0).val = (q ⟨0, by decide⟩).val :=
  dotD.rhsIdx_val_of_single rfl i q
/-- The right operand's column coordinate is the output's column. -/
private theorem rhs1 (i : S256x4096.Idx) (q : dotD.contr.Idx) : (dotD.rhsIdx i q 1).val = (i 1).val := by
  unfold DotDims.rhsIdx
  rw [dif_neg (show ¬(1 : Fin S1024x4096.rank) ∈ dotD.rhsBatch by decide), dif_pos (show (1 : Fin S1024x4096.rank) ∈ dotD.rhsNonContracting by decide)]
  rfl

/-- A matrix product into the zero tile, read at (`r`, `col`): the sum over the 1024 features of the products. -/
private theorem mm_apply (A : FVec Ideal S256x1024 .bf16) (B : FVec Ideal S1024x4096 .bf16) (r : Fin 256) (col : Fin 4096) :
    matmul dotD none A B (constant (F := Ideal) S256x4096 .f32 0x00000000#32) (ix2 r col)
      = ∑ k : Fin 1024, A (ix2 r k) * B (ix2 k col) := by
  refine (Ideal.matmul_constant_zero_apply dotD none A B (ix2 r col)).trans ?_
  rw [← Equiv.sum_comp (contrEquiv1 dotD 1024 rfl rfl).symm]
  refine Finset.sum_congr rfl fun k _ => ?_
  have hk := contrEquiv1_symm_val dotD 1024 rfl rfl k
  have el : dotD.lhsIdx (ix2 r col) ((contrEquiv1 dotD 1024 rfl rfl).symm k) = ix2 r k := funext fun a => Fin.ext (by
    match a with
    | ⟨0, _⟩ => exact lhs0 _ _
    | ⟨1, _⟩ => exact (lhs1 _ _).trans hk)
  have er : dotD.rhsIdx (ix2 r col) ((contrEquiv1 dotD 1024 rfl rfl).symm k) = ix2 k col := funext fun a => Fin.ext (by
    match a with
    | ⟨0, _⟩ => exact (rhs0 _ _).trans hk
    | ⟨1, _⟩ => exact rhs1 _ _)
  rw [el, er]

/-- Entry (`r`, `col`) of the tile of gate pre-activations. -/
theorem pay1_apply (P0 P1 : Vec Ideal S256x1024 .f32) (P2 P3 : Vec Ideal S1024x4096 .bf16) (P4 : Vec Ideal S1x4096 .f32)
    (r : Fin 256) (col : Fin 4096) :
    k0_pay1 (F := Ideal) P0 P1 P2 P3 P4 (ix2 r col)
      = ((∑ k : Fin 1024, P0 (ix2 r k) * P2 (ix2 k col)) + (∑ k : Fin 1024, P1 (ix2 r k) * P3 (ix2 k col))) + P4 (ix2 (0 : Fin 1) col) := by
  -- each matrix product: the cast of the weights to their own shape is the identity, and the narrowing of the
  -- activations is the identity on extended reals
  have h1 : matmul dotD none (truncf .bf16 P0 bitsLt_bf16_f32 : FVec Ideal S256x1024 .bf16) (shapeCast S1024x4096 P2 shapeCasts_S1024x4096_S1024x4096 : FVec Ideal S1024x4096 .bf16)
      (constant (F := Ideal) S256x4096 .f32 0x00000000#32) (ix2 r col) = ∑ k : Fin 1024, P0 (ix2 r k) * P2 (ix2 k col) := by
    rw [shapeCast_self]
    exact mm_apply _ _ r col
  have h2 : matmul dotD none (truncf .bf16 P1 bitsLt_bf16_f32 : FVec Ideal S256x1024 .bf16) (shapeCast S1024x4096 P3 shapeCasts_S1024x4096_S1024x4096 : FVec Ideal S1024x4096 .bf16)
      (constant (F := Ideal) S256x4096 .f32 0x00000000#32) (ix2 r col) = ∑ k : Fin 1024, P1 (ix2 r k) * P3 (ix2 k col) := by
    rw [shapeCast_self]
    exact mm_apply _ _ r col
  -- the bias row, broadcast down the 256 rows, read at row `r`: its row 0
  have h3 : broadcastTo S256x4096 (shapeCast S1x4096 P4 shapeCasts_S1x4096_S1x4096 : FVec Ideal S1x4096 .f32) broadcasts_S1x4096_S256x4096 (ix2 r col)
      = P4 (ix2 (0 : Fin 1) col) := by
    rw [shapeCast_self]
    refine broadcastTo_apply _ _ _ (ix2 (0 : Fin 1) col) fun a => ?_
    match a with
    | ⟨0, _⟩ =>
      show (0 : ℕ) = if (1 : ℕ) = 1 then 0 else _
      rw [if_pos rfl]
    | ⟨1, _⟩ =>
      show col.val = if (4096 : ℕ) = 1 then 0 else col.val
      rw [if_neg (by decide)]
  unfold k0_pay1
  exact congrArg₂ (· + ·) (congrArg₂ (· + ·) h1 h2) h3

end Cert.Lstm.Body

end
-- ==== Proof.BlockCell.lean ====
/-
  One grid point of the kernel, as mathematics over variables: if the six tiles the body loads are the argument arrays
  read at the point's rows (the three batch tiles are rows `256·t … 256·t + 255` of `x`, `h`, `c`; the two prepared
  weight tiles hold `W[g, j, k]` at (feature `k`, column `1024·g + j`); the bias tile holds `bh[g, j]` at column
  `1024·g + j`), then the tile of gate pre-activations at (row `r`, column `1024·g + j`) is `gate (256·t + r) g j`, and
  the two tiles the body stores are the next cell and hidden states of those rows.
-/
import proofs.«130120_j76519137345618_2_alg».proof.Proof.Gen.KernelIdeal.Value
import proofs.«130120_j76519137345618_2_alg».proof.Proof.Spec
import proofs.«130120_j76519137345618_2_alg».proof.Proof.BodyGate

noncomputable section

namespace Cert.Lstm.Block

open Idealize.ShloMosaic Idealize.ShloMosaic.ValueIdx
open Cert.KernelIdeal Cert.KernelIdeal.Gen Cert.KernelIdeal.Value

/-- Row `r` of grid point `t`'s tile is batch row `256·t + r`. -/
def row (t : Fin 32) (r : Fin 256) : Fin 8192 := ⟨t.val * 256 + r.val, by have := t.isLt; have := r.isLt; omega⟩

/-- Column `1024·g + j` of the flattened (gate, unit) axis. -/
def gcol (g : Fin 4) (j : Fin 1024) : Fin 4096 := ⟨g.val * 1024 + j.val, by have := g.isLt; have := j.isLt; omega⟩

/-- What the six loaded tiles are, in terms of the argument arrays, at grid point `t`. -/
structure Reads (X H C : Bat) (Wx Wh : Wgt) (bh : Bia) (t : Fin 32)
    (P0 P1 P5 : Vec Ideal S256x1024 .f32) (P2 P3 : Vec Ideal S1024x4096 .bf16) (P4 : Vec Ideal S1x4096 .f32) : Prop where
  x : ∀ (r : Fin 256) (k : Fin 1024), P0 (ix2 r k) = X (ix2 (row t r) k)
  h : ∀ (r : Fin 256) (k : Fin 1024), P1 (ix2 r k) = H (ix2 (row t r) k)
  c : ∀ (r : Fin 256) (j : Fin 1024), P5 (ix2 r j) = C (ix2 (row t r) j)
  wx : ∀ (k : Fin 1024) (g : Fin 4) (j : Fin 1024), P2 (ix2 k (gcol g j)) = Wx (ix3 g j k)
  wh : ∀ (k : Fin 1024) (g : Fin 4) (j : Fin 1024), P3 (ix2 k (gcol g j)) = Wh (ix3 g j k)
  b : ∀ (g : Fin 4) (j : Fin 1024), P4 (ix2 (0 : Fin 1) (gcol g j)) = bh (ix2 g j)

variable {X H C : Bat} {Wx Wh : Wgt} {bh : Bia} {t : Fin 32}
  {P0 P1 P5 : Vec Ideal S256x1024 .f32} {P2 P3 : Vec Ideal S1024x4096 .bf16} {P4 : Vec Ideal S1x4096 .f32}

/-- The tile of pre-activations at (row `r`, column `1024·g + j`) is gate `g` of unit `j` on batch row `256·t + r`:
    the two products become the specification's sums term by term, and the bias its entry. -/
theorem gate_at (hr : Reads X H C Wx Wh bh t P0 P1 P5 P2 P3 P4) (r : Fin 256) (g : Fin 4) (j : Fin 1024) :
    k0_pay1 (F := Ideal) P0 P1 P2 P3 P4 (ix2 r (gcol g j)) = gate X H Wx Wh bh (row t r) g j := by
  refine (Cert.Lstm.Body.pay1_apply P0 P1 P2 P3 P4 r (gcol g j)).trans ?_
  unfold Cert.Lstm.gate
  have e0 : (∑ k : Fin 1024, P0 (ix2 r k) * P2 (ix2 k (gcol g j))) = ∑ k : Fin 1024, X (ix2 (row t r) k) * Wx (ix3 g j k) :=
    Finset.sum_congr rfl fun k _ => by rw [hr.x r k, hr.wx k g j]
  have e1 : (∑ k : Fin 1024, P1 (ix2 r k) * P3 (ix2 k (gcol g j))) = ∑ k : Fin 1024, H (ix2 (row t r) k) * Wh (ix3 g j k) :=
    Finset.sum_congr rfl fun k _ => by rw [hr.h r k, hr.wh k g j]
  rw [e0, e1, hr.b g j]

/-- The tile the body stores as the cell output, at (`r`, `j`), is the next cell state of batch row `256·t + r`. -/
theorem cell_at (hr : Reads X H C Wx Wh bh t P0 P1 P5 P2 P3 P4) (r : Fin 256) (j : Fin 1024) :
    E7 (F := Ideal) P0 P1 P2 P3 P4 P5 (ix2 r j) = cell X H C Wx Wh bh (row t r) j := by
  have i0 : ix7_0 (ix2 r j) = ix2 r (gcol 1 j) := funext fun a => Fin.ext (by
    match a with
    | ⟨0, _⟩ => rfl
    | ⟨1, _⟩ => show j.val + 1024 = 1 * 1024 + j.val; omega)
  have i1 : ix7_1 (ix2 r j) = ix2 r j := funext fun a => Fin.ext (by
    match a with
    | ⟨0, _⟩ => rfl
    | ⟨1, _⟩ => rfl)
  have i2 : ix7_2 (ix2 r j) = ix2 r (gcol 0 j) := funext fun a => Fin.ext (by
    match a with
    | ⟨0, _⟩ => rfl
    | ⟨1, _⟩ => show j.val = 0 * 1024 + j.val; omega)
  have i3 : ix7_3 (ix2 r j) = ix2 r (gcol 2 j) := funext fun a => Fin.ext (by
    match a with
    | ⟨0, _⟩ => rfl
    | ⟨1, _⟩ => show j.val + 2048 = 2 * 1024 + j.val; omega)
  show FloatOps.addf (FloatOps.mulf (FloatOps.logistic (k0_pay1 (F := Ideal) P0 P1 P2 P3 P4 (ix7_0 (ix2 r j)))) (P5 (ix7_1 (ix2 r j))))
      (FloatOps.mulf (FloatOps.logistic (k0_pay1 (F := Ideal) P0 P1 P2 P3 P4 (ix7_2 (ix2 r j)))) (FloatOps.tanh (k0_pay1 (F := Ideal) P0 P1 P2 P3 P4 (ix7_3 (ix2 r j))))) = _
  rw [i0, i1, i2, i3, gate_at hr r 1 j, gate_at hr r 0 j, gate_at hr r 2 j, hr.c r j]
  rfl

/-- The tile the body stores as the hidden output, at (`r`, `j`), is the next hidden state of batch row `256·t + r`. -/
theorem hidden_at (hr : Reads X H C Wx Wh bh t P0 P1 P5 P2 P3 P4) (r : Fin 256) (j : Fin 1024) :
    E6 (F := Ideal) P0 P1 P2 P3 P4 P5 (ix2 r j) = hidden X H C Wx Wh bh (row t r) j := by
  have i0 : ix6_0 (ix2 r j) = ix2 r (gcol 3 j) := funext fun a => Fin.ext (by
    match a with
    | ⟨0, _⟩ => rfl
    | ⟨1, _⟩ => show j.val + 3072 = 3 * 1024 + j.val; omega)
  have i1 : ix6_1 (ix2 r j) = ix2 r (gcol 1 j) := funext fun a => Fin.ext (by
    match a with
    | ⟨0, _⟩ => rfl
    | ⟨1, _⟩ => show j.val + 1024 = 1 * 1024 + j.val; omega)
  have i2 : ix6_2 (ix2 r j) = ix2 r j := funext fun a => Fin.ext (by
    match a with
    | ⟨0, _⟩ => rfl
    | ⟨1, _⟩ => rfl)
  have i3 : ix6_3 (ix2 r j) = ix2 r (gcol 0 j) := funext fun a => Fin.ext (by
    match a with
    | ⟨0, _⟩ => rfl
    | ⟨1, _⟩ => show j.val = 0 * 1024 + j.val; omega)
  have i4 : ix6_4 (ix2 r j) = ix2 r (gcol 2 j) := funext fun a => Fin.ext (by
    match a with
    | ⟨0, _⟩ => rfl
    | ⟨1, _⟩ => show j.val + 2048 = 2 * 1024 + j.val; omega)
  show FloatOps.mulf (FloatOps.logistic (k0_pay1 (F := Ideal) P0 P1 P2 P3 P4 (ix6_0 (ix2 r j))))
      (FloatOps.tanh (FloatOps.addf (FloatOps.mulf (FloatOps.logistic (k0_pay1 (F := Ideal) P0 P1 P2 P3 P4 (ix6_1 (ix2 r j)))) (P5 (ix6_2 (ix2 r j))))
        (FloatOps.mulf (FloatOps.logistic (k0_pay1 (F := Ideal) P0 P1 P2 P3 P4 (ix6_3 (ix2 r j)))) (FloatOps.tanh (k0_pay1 (F := Ideal) P0 P1 P2 P3 P4 (ix6_4 (ix2 r j))))))) = _
  rw [i0, i1, i2, i3, i4, gate_at hr r 3 j, gate_at hr r 1 j, gate_at hr r 0 j, gate_at hr r 2 j, hr.c r j]
  rfl

end Cert.Lstm.Block

end
-- ==== Proof.KernelRun.lean ====
/-
  The kernel program's run, read as mathematics: after it, the two result arrays are the next hidden and cell states
  of the argument arrays, whole.

  The grid has 32 points; point `t` loads rows `256·t … 256·t + 255` of `x`, `h`, `c` and the three prepared arrays
  whole, and writes back rows `256·t … 256·t + 255` of each result. Each tile it writes is the specification's array
  read through that block (one tile's worth of `Block.cell_at` / `Block.hidden_at`), the 32 row blocks cover the
  8192 rows (row `i` lies in block `i / 256`), so each result array is the specification's array.
-/
import proofs.«130120_j76519137345618_2_alg».proof.Proof.Gen.KernelIdeal.Value
import proofs.«130120_j76519137345618_2_alg».proof.Proof.Spec
import proofs.«130120_j76519137345618_2_alg».proof.Proof.HostPrep
import proofs.«130120_j76519137345618_2_alg».proof.Proof.BlockCell
import Idealize.ShloMosaic.Lib.Pipeline.Value
import Idealize.ShloMosaic.Lib.Tactic

noncomputable section

namespace Cert.Lstm.Run

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.Lstm.Block

variable (m : (ℓ : Loc nD τ sig) → Buf (Elt Ideal) ℓ) (ρ : Dev nD → PrngReg)

theorem hz : (![0, 0] : Fin 2 → Nat) = fun _ => 0 := funext fun a => by fin_cases a <;> rfl

/-- A grid point as a number below 32. -/
def pt (t : Fin cfg0.N) : Fin 32 := ⟨t.val, lt_of_lt_of_eq t.isLt N_0⟩

/-- The printed index maps, decided over the 32 points: the three batch windows and the two result windows sit at
    block row `t`, block column 0; the three prepared arrays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! ## The loaded tiles as the argument arrays -/

/-- The tile of `x` at point `t` is rows `256·t …` of the argument. -/
theorem tile_x (c : Dev nD) (t : Fin cfg0.N) (r : Fin 256) (k : Fin 1024) :
    (iblk m c 0 t : Vec Ideal S256x1024 .f32) (ix2 r k) = (m ((c : Thread nD τ).loc main_arg0) : S8192x1024.Idx → EReal) (ix2 (row (pt t) r) k) := by
  obtain ⟨⟨e0, e1⟩, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 256 + 1 * r.val = t.val * 256 + r.val; rw [e0]; omega
  | ⟨1, _⟩ => show win0_0.index t (1 : Fin 2) * 1024 + 1 * k.val = k.val; rw [e1]; omega

/-- The tile of `h` at point `t` is rows `256·t …` of the argument. -/
theorem tile_h (c : Dev nD) (t : Fin cfg0.N) (r : Fin 256) (k : Fin 1024) :
    (iblk m c 1 t : Vec Ideal S256x1024 .f32) (ix2 r k) = (m ((c : Thread nD τ).loc main_arg1) : S8192x1024.Idx → EReal) (ix2 (row (pt t) r) k) := by
  obtain ⟨-, ⟨e0, e1⟩, -⟩ := idx_facts t
  show V m c main_arg1 (((cfg0.win 1).blk t).view.emb (ix2 r k)) = _
  rw [V_main_arg1]
  refine congrArg _ (funext fun a => Fin.ext ?_)
  match a with
  | ⟨0, _⟩ => show win0_1.index t (0 : Fin 2) * 256 + 1 * r.val = t.val * 256 + r.val; rw [e0]; omega
  | ⟨1, _⟩ => show win0_1.index t (1 : Fin 2) * 1024 + 1 * k.val = k.val; rw [e1]; omega

/-- The tile of `c` at point `t` is rows `256·t …` of the argument. -/
theorem tile_c (c : Dev nD) (t : Fin cfg0.N) (r : Fin 256) (k : Fin 1024) :
    (iblk m c 2 t : Vec Ideal S256x1024 .f32) (ix2 r k) = (m ((c : Thread nD τ).loc main_arg2) : S8192x1024.Idx → EReal) (ix2 (row (pt t) r) k) := by
  obtain ⟨-, -, ⟨e0, e1⟩, -⟩ := idx_facts t
  show V m c main_arg2 (((cfg0.win 2).blk t).view.emb (ix2 r k)) = _
  rw [V_main_arg2]
  refine congrArg _ (funext fun a => Fin.ext ?_)
  match a with
  | ⟨0, _⟩ => show win0_2.index t (0 : Fin 2) * 256 + 1 * r.val = t.val * 256 + r.val; rw [e0]; omega
  | ⟨1, _⟩ => show win0_2.index t (1 : Fin 2) * 1024 + 1 * k.val = k.val; rw [e1]; omega

/-- The tile of the prepared input weights is the whole prepared array, at every point. -/
theorem tile_wx (c : Dev nD) (t : Fin cfg0.N) (k : Fin 1024) (col : Fin 4096) :
    (iblk m c 3 t : Vec Ideal S1024x4096 .bf16) (ix2 k col) = (V m c main_v2 : S1024x4096.Idx → EReal) (ix2 k col) := by
  obtain ⟨-, -, -, ⟨e0, e1⟩, -⟩ := idx_facts t
  show V m c main_v2 (((cfg0.win 3).blk t).view.emb (ix2 k col)) = _
  refine congrArg _ (funext fun a => Fin.ext ?_)
  match a with
  | ⟨0, _⟩ => show win0_3.index t (0 : Fin 2) * 1024 + 1 * k.val = k.val; rw [e0]; omega
  | ⟨1, _⟩ => show win0_3.index t (1 : Fin 2) * 4096 + 1 * col.val = col.val; rw [e1]; omega

/-- The tile of the prepared recurrent weights is the whole prepared array, at every point. -/
theorem tile_wh (c : Dev nD) (t : Fin cfg0.N) (k : Fin 1024) (col : Fin 4096) :
    (iblk m c 4 t : Vec Ideal S1024x4096 .bf16) (ix2 k col) = (V m c main_v5 : S1024x4096.Idx → EReal) (ix2 k col) := by
  obtain ⟨-, -, -, -, ⟨e0, e1⟩, -⟩ := idx_facts t
  show V m c main_v5 (((cfg0.win 4).blk t).view.emb (ix2 k col)) = _
  refine congrArg _ (funext fun a => Fin.ext ?_)
  match a with
  | ⟨0, _⟩ => show win0_4.index t (0 : Fin 2) * 1024 + 1 * k.val = k.val; rw [e0]; omega
  | ⟨1, _⟩ => show win0_4.index t (1 : Fin 2) * 4096 + 1 * col.val = col.val; rw [e1]; omega

/-- The bias tile is the whole prepared bias row, at every point. -/
theorem tile_b (c : Dev nD) (t : Fin cfg0.N) (z : Fin 1) (col : Fin 4096) :
    (iblk m c 5 t : Vec Ideal S1x4096 .f32) (ix2 z col) = (V m c main_v6 : S1x4096.Idx → EReal) (ix2 z col) := by
  obtain ⟨-, -, -, -, -, ⟨e0, e1⟩, -⟩ := idx_facts t
  show V m c main_v6 (((cfg0.win 5).blk t).view.emb (ix2 z col)) = _
  refine congrArg _ (funext fun a => Fin.ext ?_)
  match a with
  | ⟨0, _⟩ => show win0_5.index t (0 : Fin 2) * 1 + 1 * z.val = z.val; rw [e0]; omega
  | ⟨1, _⟩ => show win0_5.index t (1 : Fin 2) * 4096 + 1 * col.val = col.val; rw [e1]; omega

/-- The six tiles at point `t` read the argument arrays as one grid point of the cell asks. -/
theorem reads (c : Dev nD) (t : Fin cfg0.N) :
    Reads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (pt t)
      (iblk m c 0 t) (iblk m c 1 t) (iblk m c 2 t) (iblk m c 3 t) (iblk m c 4 t) (iblk m c 5 t) where
  x := tile_x m c t
  h := tile_h m c t
  c := tile_c m c t
  wx k g j := (tile_wx m c t k (gcol g j)).trans (Cert.Lstm.Host.wx_apply m c k g j (gcol g j) rfl)
  wh k g j := (tile_wh m c t k (gcol g j)).trans (Cert.Lstm.Host.wh_apply m c k g j (gcol g j) rfl)
  b g j := (tile_b m c t 0 (gcol g j)).trans (Cert.Lstm.Host.bh_apply m c 0 g j (gcol g j) rfl)

/-! ## What each point writes back -/

/-- The specification's next cell state of the argument arrays as launched. -/
abbrev cellOf (c : Dev nD) : S8192x1024.Idx → EReal :=
  cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The specification's next hidden state of the argument arrays as launched. -/
abbrev hiddenOf (c : Dev nD) : S8192x1024.Idx → EReal :=
  hiddenArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where entry (`r`, `j`) of point `t`'s cell tile lands in the result array: row `256·t + r`, column `j`. -/
theorem emb7 (t : Fin cfg0.N) (r : Fin 256) (j : Fin 1024) :
    ((cfg0.win 7).blk t).view.emb (ix2 r j) = (ix2 (row (pt t) r) j : S8192x1024.Idx) := by
  obtain ⟨-, -, -, -, -, -, -, ⟨e0, e1⟩⟩ := idx_facts t
  refine funext fun a => Fin.ext ?_
  match a with
  | ⟨0, _⟩ => show win0_7.index t (0 : Fin 2) * 256 + 1 * r.val = t.val * 256 + r.val; rw [e0]; omega
  | ⟨1, _⟩ => show win0_7.index t (1 : Fin 2) * 1024 + 1 * j.val = j.val; rw [e1]; omega

/-- Where entry (`r`, `j`) of point `t`'s hidden tile lands in the result array: row `256·t + r`, column `j`. -/
theorem emb6 (t : Fin cfg0.N) (r : Fin 256) (j : Fin 1024) :
    ((cfg0.win 6).blk t).view.emb (ix2 r j) = (ix2 (row (pt t) r) j : S8192x1024.Idx) := by
  obtain ⟨-, -, -, -, -, -, ⟨e0, e1⟩, -⟩ := idx_facts t
  refine funext fun a => Fin.ext ?_
  match a with
  | ⟨0, _⟩ => show win0_6.index t (0 : Fin 2) * 256 + 1 * r.val = t.val * 256 + r.val; rw [e0]; omega
  | ⟨1, _⟩ => show win0_6.index t (1 : Fin 2) * 1024 + 1 * j.val = j.val; rw [e1]; omega

/-- WHAT POINT `t` WRITES BACK to the cell result is block `t` of the specification's next cell state. -/
theorem flushed7_eq (c : Dev nD) (t : Fin cfg0.N) :
    (dats m 0 c).flushed 7 t = ((cfg0.win 7).blk t).view.read (Elt Ideal) (cellOf m c) := by
  rw [flushed7]
  unfold out0_7
  funext (y : S256x1024.Idx)
  obtain ⟨r, j, rfl⟩ : ∃ (r : Fin 256) (j : Fin 1024), y = ix2 r j := ⟨y 0, y 1, eq_ix2 y⟩
  show (View.canon [(⟨r0_0, k0_pay2 (F := Ideal) (View.ld (iblk m c 0 t) r0_0) (View.ld (iblk m c 1 t) r0_0) (View.ld (iblk m c 2 t) r0_0) (View.ld (iblk m c 3 t) r0_1) (View.ld (iblk m c 4 t) r0_1) (View.ld (iblk m c 5 t) r0_2)⟩ : View.Piece (Elt Ideal) S256x1024 .f32)] : Vec Ideal S256x1024 .f32) (ix2 r j)
    = cellOf m c (((cfg0.win 7).blk t).view.emb (ix2 r j))
  rw [emb7 t r j]
  refine (canon7_eq (View.ld (iblk m c 0 t) r0_0) (View.ld (iblk m c 1 t) r0_0) (View.ld (iblk m c 3 t) r0_1) (View.ld (iblk m c 4 t) r0_1) (View.ld (iblk m c 5 t) r0_2) (View.ld (iblk m c 2 t) r0_0) (ix2 r j)).trans ?_
  simp only [View.ld_unit_zero (S := S256x1024) hz, View.ld_unit_zero (S := S1024x4096) hz, View.ld_unit_zero (S := S1x4096) hz]
  exact cell_at (reads m c t) r j

/-- WHAT POINT `t` WRITES BACK to the hidden result is block `t` of the specification's next hidden state. -/
theorem flushed6_eq (c : Dev nD) (t : Fin cfg0.N) :
    (dats m 0 c).flushed 6 t = ((cfg0.win 6).blk t).view.read (Elt Ideal) (hiddenOf m c) := by
  rw [flushed6]
  unfold out0_6
  funext (y : S256x1024.Idx)
  obtain ⟨r, j, rfl⟩ : ∃ (r : Fin 256) (j : Fin 1024), y = ix2 r j := ⟨y 0, y 1, eq_ix2 y⟩
  show (View.canon [(⟨r0_0, k0_pay3 (F := Ideal) (View.ld (iblk m c 0 t) r0_0) (View.ld (iblk m c 1 t) r0_0) (View.ld (iblk m c 2 t) r0_0) (View.ld (iblk m c 3 t) r0_1) (View.ld (iblk m c 4 t) r0_1) (View.ld (iblk m c 5 t) r0_2)⟩ : View.Piece (Elt Ideal) S256x1024 .f32)] : Vec Ideal S256x1024 .f32) (ix2 r j)
    = hiddenOf m c (((cfg0.win 6).blk t).view.emb (ix2 r j))
  rw [emb6 t r j]
  refine (canon6_eq (View.ld (iblk m c 0 t) r0_0) (View.ld (iblk m c 1 t) r0_0) (View.ld (iblk m c 3 t) r0_1) (View.ld (iblk m c 4 t) r0_1) (View.ld (iblk m c 5 t) r0_2) (View.ld (iblk m c 2 t) r0_0) (ix2 r j)).trans ?_
  simp only [View.ld_unit_zero (S := S256x1024) hz, View.ld_unit_zero (S := S1024x4096) hz, View.ld_unit_zero (S := S1x4096) hz]
  exact hidden_at (reads m c t) r j

/-! ## The blocks cover the arrays -/

/-- The point whose block holds row `i`: `i / 256`. -/
def ptOf (i : S8192x1024.Idx) : Fin cfg0.N :=
  ⟨(i 0).val / 256, by have h : (i 0).val < 8192 := (i 0).isLt; rw [show cfg0.N = 32 from N_0]; omega⟩

/-- Every index of the cell result lies in the block of point `i / 256`. -/
theorem cover7 (i : S8192x1024.Idx) : ∃ t : Fin cfg0.N, (cfg0.win 7).flush t = true ∧ i ∈ ((cfg0.win 7).blk t).view.set := by
  refine ⟨ptOf i, flush0_7 _, ?_⟩
  obtain ⟨-, -, -, -, -, -, -, ⟨e0, e1⟩⟩ := idx_facts (ptOf i)
  have h0 : (i 0).val < 8192 := (i 0).isLt
  have h1 : (i 1).val < 1024 := (i 1).isLt
  have hp : (ptOf i).val = (i 0).val / 256 := rfl
  show i ∈ ((View.whole main_v7_1).slice (win0_7.rect (ptOf i))).set
  rw [View.set_slice_whole, Rect.mem_set_unit]
  intro a
  match a with
  | ⟨0, _⟩ => show win0_7.index (ptOf i) (0 : Fin 2) * 256 ≤ (i 0).val ∧ (i 0).val < win0_7.index (ptOf i) (0 : Fin 2) * 256 + 256; rw [e0, hp]; omega
  | ⟨1, _⟩ => show win0_7.index (ptOf i) (1 : Fin 2) * 1024 ≤ (i 1).val ∧ (i 1).val < win0_7.index (ptOf i) (1 : Fin 2) * 1024 + 1024; rw [e1]; omega

/-- Every index of the hidden result lies in the block of point `i / 256`. -/
theorem cover6 (i : S8192x1024.Idx) : ∃ t : Fin cfg0.N, (cfg0.win 6).flush t = true ∧ i ∈ ((cfg0.win 6).blk t).view.set := by
  refine ⟨ptOf i, flush0_6 _, ?_⟩
  obtain ⟨-, -, -, -, -, -, ⟨e0, e1⟩, -⟩ := idx_facts (ptOf i)
  have h0 : (i 0).val < 8192 := (i 0).isLt
  have h1 : (i 1).val < 1024 := (i 1).isLt
  have hp : (ptOf i).val = (i 0).val / 256 := rfl
  show i ∈ ((View.whole main_v7_0).slice (win0_6.rect (ptOf i))).set
  rw [View.set_slice_whole, Rect.mem_set_unit]
  intro a
  match a with
  | ⟨0, _⟩ => show win0_6.index (ptOf i) (0 : Fin 2) * 256 ≤ (i 0).val ∧ (i 0).val < win0_6.index (ptOf i) (0 : Fin 2) * 256 + 256; rw [e0, hp]; omega
  | ⟨1, _⟩ => show win0_6.index (ptOf i) (1 : Fin 2) * 1024 ≤ (i 1).val ∧ (i 1).val < win0_6.index (ptOf i) (1 : Fin 2) * 1024 + 1024; rw [e1]; omega

/-! ## The arrays after the run, and the run -/

/-- The cell result after the run is the specification's next cell state. -/
theorem final7 (c : Dev nD) : (dats m 0 c).arrAt 7 cfg0.N = cellOf m c :=
  (dats m 0 c).arrAt_eq_of_cover 7 (cellOf m c) (fun t _ => flushed7_eq m c t) cover7

/-- The hidden result after the run is the specification's next hidden state. -/
theorem final6 (c : Dev nD) : (dats m 0 c).arrAt 6 cfg0.N = hiddenOf m c :=
  (dats m 0 c).arrAt_eq_of_cover 6 (hiddenOf m c) (fun t _ => flushed6_eq m c t) cover6

/-- The kernel program's run, read: every weakly fair execution ends with the first result the next hidden state and
    the second the next cell state of the arguments, and the arguments unchanged. -/
theorem run : θ_run defs (onTc (τ := τ) (main (F := Ideal))) ⟨m, fun _ => 0, ρ⟩ fun r => ∀ c : Dev nD,
      r.2.mem ((c : Thread nD τ).loc main_v7_0) = hiddenOf m c
      ∧ r.2.mem ((c : Thread nD τ).loc main_v7_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Cert.KernelIdeal.Value.run_blocks m ρ)

end Cert.Lstm.Run

end
-- ==== Proof.lean ====
/-
  A long short-term memory cell computed by a tiled kernel is the cell computed by its plain reference, on the
  extended reals.

  The kernel program first rearranges the weights on the host (each [4, 1024, 1024] weight array transposed to
  (feature, gate, unit), flattened to [1024, 4096] and narrowed; the bias flattened to [1, 4096]) and then runs a grid of
  32 points, point `t` taking rows `256·t … 256·t + 255` of `x`, `h_prev`, `c_prev`: it forms all four gates'
  pre-activations at once as two [256, 1024] × [1024, 4096] products plus the bias row, cuts the [256, 4096] result into
  the four gates by column ranges, and stores `c' = σ(f)·c + σ(i)·tanh(g)` and `h' = σ(o)·tanh(c')`. The reference forms
  the pre-activations as two contractions over [8192, 4, 1024] plus the broadcast bias, slices the gates along the middle
  axis, and writes σ as `1 / (1 + e^(−z))`.

  At exact arithmetic the narrowing is the identity, a matrix product into a zero tile and a contraction are both the
  plain sum over the 1024 features, column `1024·g + j` of the flattened weights is entry (g, j), and the logistic
  function is by definition `1 / (1 + e^(−z))`. Both programs add the two sums first and the bias last, and multiply and
  add the gates in the same order, so the two sides are the same expression index by index (`Cert.Lstm.cell`,
  `Cert.Lstm.hidden` in Proof/Spec.lean): nothing is re-associated or distributed, and the finiteness of the inputs is
  never used.

  Proof/RefCell.lean reads the reference's results as that expression; Proof/BodyGate.lean, Proof/BlockCell.lean and
  Proof/HostPrep.lean read one grid point of the kernel as that expression on its rows; Proof/KernelRun.lean puts the 32
  row blocks together. The kernel's idealization is the kernel's own text read at exact arithmetic, with no operation
  rewritten, so there is nothing for it to preserve.
-/
import proofs.«130120_j76519137345618_2_alg».proof.Defs
import proofs.«130120_j76519137345618_2_alg».proof.Proof.Gen.Kernel
import proofs.«130120_j76519137345618_2_alg».proof.Proof.Gen.Kernel.Skeleton
import proofs.«130120_j76519137345618_2_alg».proof.Proof.Gen.Kernel.Launch
import proofs.«130120_j76519137345618_2_alg».proof.Proof.Gen.Kernel.Points
import proofs.«130120_j76519137345618_2_alg».proof.Proof.Gen.Kernel.Frame
import proofs.«130120_j76519137345618_2_alg».proof.Proof.Gen.KernelIdeal
import proofs.«130120_j76519137345618_2_alg».proof.Proof.Gen.KernelIdeal.Skeleton
import proofs.«130120_j76519137345618_2_alg».proof.Proof.Gen.KernelIdeal.Launch
import proofs.«130120_j76519137345618_2_alg».proof.Proof.Gen.KernelIdeal.Points
import proofs.«130120_j76519137345618_2_alg».proof.Proof.Gen.KernelIdeal.Frame
import proofs.«130120_j76519137345618_2_alg».proof.Proof.Gen.KernelIdeal.Value
import proofs.«130120_j76519137345618_2_alg».proof.Proof.Gen.ReferenceIdeal
import proofs.«130120_j76519137345618_2_alg».proof.Proof.Gen.ReferenceIdeal.Run
import proofs.«130120_j76519137345618_2_alg».proof.Proof.Gen.ReferenceIdeal.Read
import proofs.«130120_j76519137345618_2_alg».proof.Proof.Gen.Pre_finite_inputs
import proofs.«130120_j76519137345618_2_alg».proof.Proof.Spec
import proofs.«130120_j76519137345618_2_alg».proof.Proof.RefCell
import proofs.«130120_j76519137345618_2_alg».proof.Proof.KernelRun
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel [Cert.Kernel.Facts] [Cert.Pre_finite_inputs.Facts] : Cert.frame_Kernel :=
  fun m ρ _ => Cert.Kernel.Gen.frame m ρ

/-- So does its reading at exact arithmetic. -/
theorem frame_kernelIdeal [Cert.KernelIdeal.Facts] [Cert.Pre_finite_inputs.Facts] : Cert.frame_KernelIdeal :=
  fun m ρ _ => Cert.KernelIdeal.Gen.frame m ρ

/-- The reference is a straight line of host operations: it runs, and no operation writes an argument. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both programs end with the next hidden state and the next cell state of the shared arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Lstm.Run.hiddenOf m c, fun c => Cert.Lstm.Run.cellOf m c, Cert.Lstm.Run.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v37_eq, Cert.Lstm.Ref.ref_hidden,
      (hagree c).1, (hagree c).2.1, (hagree c).2.2.1, (hagree c).2.2.2.1, (hagree c).2.2.2.2.1, (hagree c).2.2.2.2.2]
  · rw [(h c).2.1, Cert.ReferenceIdeal.Read.val_main_v35_eq, Cert.Lstm.Ref.ref_cell,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
